-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S50000x128 : Shape := ⟨2, ![50000, 128]⟩
abbrev S50000 : Shape := ⟨1, ![50000]⟩
abbrev S800000 : Shape := ⟨1, ![800000]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S50000 : S_.BroadcastsInDim S50000 (![] : Fin 0 → Fin S50000.rank)
  reducesTo_S50000_S_d0 : S50000.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S4096x128 .f32) (main_arg1 : FVec F S50000x128 .f32) (main_arg2 : FVec F S50000 .f32) (main_arg3 : FVec F S800000 .f32) (main_arg4 : IVec S800000 32) (main_arg5 : IVec S800000 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000 .f32 := Host.absf main_arg2
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S4096x128 : Shape := ⟨2, ![4096, 128]⟩
abbrev S50000x128 : Shape := ⟨2, ![50000, 128]⟩
abbrev S50000 : Shape := ⟨1, ![50000]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x50000 : Shape := ⟨2, ![1, 50000]⟩
abbrev S4096x50000 : Shape := ⟨2, ![4096, 50000]⟩
abbrev S512x128 : Shape := ⟨2, ![512, 128]⟩
abbrev S1x512 : Shape := ⟨2, ![1, 512]⟩
abbrev S4096x512 : Shape := ⟨2, ![4096, 512]⟩

abbrev nBuf : Space → Nat
  | .hbm => 24
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S50000x128, .f32⟩
  | .hbm, ⟨2, _⟩ => ⟨S50000, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x50000, .f32⟩
  | .hbm, ⟨23, _⟩ => ⟨S4096x50000, .f32⟩
  | .local _ .vmem, ⟨0, _⟩ => ⟨S4096x128, .f32⟩
  | .local _ .vmem, ⟨1, _⟩ => ⟨S512x128, .f32⟩
  | .local _ .vmem, ⟨2, _⟩ => ⟨S512x128, .f32⟩
  | .local _ .vmem, ⟨3, _⟩ => ⟨S1x512, .f32⟩
  | .local _ .vmem, ⟨4, _⟩ => ⟨S1x512, .f32⟩
  | .local _ .vmem, ⟨5, _⟩ => ⟨S4096x512, .f32⟩
  | .local _ .vmem, ⟨6, _⟩ => ⟨S4096x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S1x50000 : S50000.ShapeCasts S1x50000
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S4096x128_S512x128_S4096x512_1_1_0_0_n_n_wf : DotDims.WF S4096x128 S512x128 S4096x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x128.size a < S50000x128.size a
  hwx0_1 : ∀ i : grid0.Coords, EltTy.bits .f32 = 32 ∨ (Rect.unit (s := S50000x128) (fun a => cc0_transform_1 i a * S512x128.size a) (fun a => (Pipeline.Clip.of (cc0_transform_1 i a) (S512x128.size a) (S50000x128.size a)).extent (S512x128.size a)) fun a => Pipeline.Clip.inb (Pipeline.Clip.ok_of (hstart0_1 i a))).WholeWords (EltTy.packing .f32)
  hwxs0_1 : ∀ i : grid0.Coords, EltTy.bits .f32 = 32 ∨ (Rect.unit (s := S512x128) (fun _ => 0) (fun a => (Pipeline.Clip.of (cc0_transform_1 i a) (S512x128.size a) (S50000x128.size a)).extent (S512x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512.size a < S1x50000.size a
  hwx0_2 : ∀ i : grid0.Coords, EltTy.bits .f32 = 32 ∨ (Rect.unit (s := S1x50000) (fun a => cc0_transform_2 i a * S1x512.size a) (fun a => (Pipeline.Clip.of (cc0_transform_2 i a) (S1x512.size a) (S1x50000.size a)).extent (S1x512.size a)) fun a => Pipeline.Clip.inb (Pipeline.Clip.ok_of (hstart0_2 i a))).WholeWords (EltTy.packing .f32)
  hwxs0_2 : ∀ i : grid0.Coords, EltTy.bits .f32 = 32 ∨ (Rect.unit (s := S1x512) (fun _ => 0) (fun a => (Pipeline.Clip.of (cc0_transform_2 i a) (S1x512.size a) (S1x50000.size a)).extent (S1x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x512.size a < S4096x50000.size a
  hwx0_3 : ∀ i : grid0.Coords, EltTy.bits .f32 = 32 ∨ (Rect.unit (s := S4096x50000) (fun a => cc0_transform_3 i a * S4096x512.size a) (fun a => (Pipeline.Clip.of (cc0_transform_3 i a) (S4096x512.size a) (S4096x50000.size a)).extent (S4096x512.size a)) fun a => Pipeline.Clip.inb (Pipeline.Clip.ok_of (hstart0_3 i a))).WholeWords (EltTy.packing .f32)
  hwxs0_3 : ∀ i : grid0.Coords, EltTy.bits .f32 = 32 ∨ (Rect.unit (s := S4096x512) (fun _ => 0) (fun a => (Pipeline.Clip.of (cc0_transform_3 i a) (S4096x512.size a) (S4096x50000.size a)).extent (S4096x512.size a)) fun a => (Nat.zero_add _).trans_le (Pipeline.Clip.extent_le (Pipeline.Clip.ok_of (hstart0_3 i a)))).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v12) S512x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v13) S1x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v14) S4096x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S50000x128 : Shape := ⟨2, ![50000, 128]⟩
abbrev S50000 : Shape := ⟨1, ![50000]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S128x50000 : Shape := ⟨2, ![128, 50000]⟩
abbrev S4096x50000 : Shape := ⟨2, ![4096, 50000]⟩
abbrev S1x50000 : Shape := ⟨2, ![1, 50000]⟩

abbrev nBuf : Space → Nat
  | .hbm => 27
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S50000x128, .f32⟩
  | .hbm, ⟨2, _⟩ => ⟨S50000, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S128x50000, .f32⟩
  | .hbm, ⟨23, _⟩ => ⟨S4096x50000, .f32⟩
  | .hbm, ⟨24, _⟩ => ⟨S1x50000, .f32⟩
  | .hbm, ⟨25, _⟩ => ⟨S4096x50000, .f32⟩
  | .hbm, ⟨26, _⟩ => ⟨S4096x50000, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S50000x128_S128x50000_1_0 : S50000x128.Transposes [1, 0] S128x50000
  bcast_S50000_S1x50000_1 : S50000.BroadcastsInDim S1x50000 (![1] : Fin 1 → Fin S1x50000.rank)
  bcast_S1x50000_S4096x50000_0_1 : S1x50000.BroadcastsInDim S4096x50000 (![0, 1] : Fin 2 → Fin S4096x50000.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S4096x128_S128x50000_S4096x50000_1_0_0_1_n_n_wf : DotDims.WF S4096x128 S128x50000 S4096x50000 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S4096x128_S128x50000_S4096x50000_1_0_0_1_n_n : DotDims S4096x128 S128x50000 S4096x50000 where
  lhsContracting := [1]
  rhsContracting := [0]
  lhsNonContracting := [0]
  rhsNonContracting := [1]
  lhsBatch := []
  rhsBatch := []
  wf := dot_S4096x128_S128x50000_S4096x50000_1_0_0_1_n_n_wf

class Facts : Prop extends Facts₀ where

variable [Facts]
-- ==== Proof.KernelTileBody.lean ====
/-
  One grid point of the tiled product. The kernel keeps the activations (4096 × 128) resident and walks the
  50000 output columns in tiles of 512: at a point it reads the activations, one 512-row tile of the
  aggregated embeddings and one 512-wide tile of the bias row, and overwrites the 4096 × 512 output tile with
  activations · tileᵀ + bias (the bias broadcast down the rows).

  This module runs that body once, at any float instance, on ARBITRARY contents of the four staging buffers:
  the three inputs are left as found, and the output tile ends at the one value the body stores, a pure
  function of the three loads. Nothing is assumed of the contents, because the last tile overhangs the arrays
  (50000 = 97 · 512 + 336) and the rows of its buffers past the arrays' end hold words nothing names.
-/
import proofs.«110476_j35639638622745_1_alg».proof.Proof.Gen.Kernel.Skeleton
import proofs.«110476_j35639638622745_1_alg».proof.Proof.Gen.Kernel.Launch
import Idealize.ShloMosaic.Lib.Pipeline.FrameBody
import Idealize.ShloMosaic.Lib.Pipeline.Value
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four accesses: each is its whole buffer, from offset zero -/

abbrev allActs : Rect S4096x128 := Rect.unit (s := S4096x128) ![0, 0] S4096x128.size inb_S4096x128_S4096x128_0_0
abbrev allRows : Rect S512x128 := Rect.unit (s := S512x128) ![0, 0] S512x128.size inb_S512x128_S512x128_0_0
abbrev allBias : Rect S1x512 := Rect.unit (s := S1x512) ![0, 0] S1x512.size inb_S1x512_S1x512_0_0
abbrev allOut : Rect S4096x512 := Rect.unit (s := S4096x512) ![0, 0] S4096x512.size inb_S4096x512_S4096x512_0_0

/-- What the body leaves in the output tile's buffer, from what the three input buffers hold: its single store,
    of the product-plus-bias of the three whole loads, through the whole tile. -/
def tileOut (acts : Vec F S4096x128 .f32) (rows : Vec F S512x128 .f32) (bias : Vec F S1x512 .f32) : Vec F S4096x512 .f32 :=
  View.canon [⟨allOut, k0_pay1 (View.ld acts allActs) (View.ld rows allRows) (View.ld bias allBias)⟩]

/-- The one store writes every element of the tile. -/
theorem store_covers (p : Vec F S4096x512 .f32) (y : S4096x512.Idx) :
    ∃ pc ∈ ([⟨allOut, p⟩] : List (View.Piece (Elt F) S4096x512 .f32)), y ∈ pc.1.set :=
  View.cover_of_tiled [⟨allOut, p⟩] S4096x512.size (by rfl) y

/-- Each access being its whole buffer, the stored value is the body's arithmetic applied to the three buffers'
    contents as they stand: loading everything reads everything, and a store through everything leaves its value. -/
theorem tileOut_eq (acts : Vec F S4096x128 .f32) (rows : Vec F S512x128 .f32) (bias : Vec F S1x512 .f32) :
    tileOut acts rows bias = k0_pay1 acts rows bias := by
  have hz : (![0, 0] : Fin 2 → Nat) = fun _ => 0 := funext fun a => by fin_cases a <;> rfl
  unfold tileOut
  rw [View.canon_unit_zero hz]
  simp only [View.ld_unit_zero (S := S4096x128) hz, View.ld_unit_zero (S := S512x128) hz, View.ld_unit_zero (S := S1x512) hz]

/-! ## The body, run once -/

set_option maxHeartbeats 1000000 in
/-- The body on whole staging buffers holding `acts`, `rows`, `bias` and (the output's) anything: it runs to its
    continuation with the three inputs as they were and the output tile at `tileOut` of them. The body also loads
    the output buffer before storing into it; that value is read by nothing. -/
theorem body_runs (c : Dev nD) (E : Set ℕ) (i : grid0.Coords)
    (arg1 : Memref sig .tc .vmem S4096x128 .f32) (harg1 : arg1.IsWhole) (arg2 : Memref sig .tc .vmem S512x128 .f32) (harg2 : arg2.IsWhole)
    (arg3 : Memref sig .tc .vmem S1x512 .f32) (harg3 : arg3.IsWhole) (arg4 : Memref sig .tc .vmem S4096x512 .f32) (harg4 : arg4.IsWhole)
    (acts : Vec F S4096x128 .f32) (rows : Vec F S512x128 .f32) (bias : Vec F S1x512 .f32) (K : PUnit → sProp 𝕄) :
    iprop(owns (c : Thread nD τ) arg1 fullShare acts ∗ owns (c : Thread nD τ) arg2 fullShare rows ∗ owns (c : Thread nD τ) arg3 fullShare bias
        ∗ (∃ d, owns (c : Thread nD τ) arg4 fullShare d)
        ∗ (iprop(owns (c : Thread nD τ) arg1 fullShare acts ∗ owns (c : Thread nD τ) arg2 fullShare rows ∗ owns (c : Thread nD τ) arg3 fullShare bias
              ∗ owns (c : Thread nD τ) arg4 fullShare (tileOut acts rows bias)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.Kernel.Tile

end
-- ==== Proof.KernelFrame.lean ====
/-
  The word-level kernel runs to the end, faults nowhere and leaves its six argument arrays as it found them.

  Nothing here says what the kernel computes. At the word level the matrix unit's product is a function of its
  WHOLE operands, and on the last tile (50000 = 97 · 512 + 336) the operands' buffers hold, past the arrays'
  end, words nothing names; so what lands in the output tile is not a named function of the arrays, and this
  proof does not try to name it. Its data are RELATIONAL: at every point, for every window, whatever the body
  is handed it may leave anything. That is enough, because the body (`Tile.body_runs`) runs on arbitrary
  buffer contents, and because the only array the region writes is the result, which is no argument:
  the activations are a staged INPUT (never written back), and the other five arguments bypass the region.
-/
import proofs.«110476_j35639638622745_1_alg».proof.Proof.KernelTileBody
import proofs.«110476_j35639638622745_1_alg».proof.Proof.Gen.Kernel.Points
import proofs.«110476_j35639638622745_1_alg».proof.Proof.Gen.Kernel.Frame
import Idealize.ShloMosaic.Lib.Pipeline.Frame
import Idealize.ShloMosaic.Lib.Pipeline.Kit

set_option maxRecDepth 16384

noncomputable section

namespace Cert.Kernel.Untouched

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that name nothing the body leaves -/

/-- On core `c`: the four windowed arrays as the region finds them; no constraint on what the body leaves in any
    staging buffer; the region's own invariant (nothing of the kernel's is scoped); nothing owed; full shares. -/
def loose (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-! ## The body at a point, on whatever the four current buffers hold -/

/-- At any point and for ANY contents `Y` of the four current staging buffers the body runs and hands the four
    buffers back, at some contents each. -/
theorem body_at (c : Dev nD) (t : Fin cfg0.N) (Y : (w : Fin cfg0.W) → (cfg0.win w).block.Idx → Elt F (cfg0.win w).elt) :
    iprop((loose m c).Φ t.castSucc ∗ (loose m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((loose m c).Φ t.succ ∗ (loose m c).owesAt () t.succ
            ∗ (∃ X, ⌜(loose m c).after 0 t (Y 0) X⌝ ∗ owns (c : Thread nD τ) (st0_0 t) fullShare X)
            ∗ (∃ X, ⌜(loose m c).after 1 t (Y 1) X⌝ ∗ owns (c : Thread nD τ) (st0_1 t) fullShare X)
            ∗ (∃ X, ⌜(loose m c).after 2 t (Y 2) X⌝ ∗ owns (c : Thread nD τ) (st0_2 t) fullShare X)
            ∗ (∃ X, ⌜(loose m c).after 3 t (Y 3) X⌝ ∗ owns (c : Thread nD τ) (st0_3 t) fullShare X))) := by
  unfold bodyAt0
  rw [show (loose m c).Φ t.succ = (loose m c).Φ t.castSucc from rfl,
    show (loose m c).owesAt () t.succ = (loose m c).owesAt () t.castSucc from rfl]
  iintro ⟨HΦ, Ho, H0, H1, H2, H3⟩
  iapply (body_runs c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (tileOut (Y 0) (Y 1) (Y 2)); isplitr; · ipureintro; trivial
    iexact H3

/-- The relational body obligation: the above at every point, the windows conjoined one by one. -/
theorem body_obligation (c : Dev nD) : (loose (F := F) m c).BodyObligation (defs₀ (F := F)) Variants.none () Set.univ := fun t Y _ => by
  rw [bigSep_W0, bigSep_W0]
  exact body_at m c t Y

/-! ## The run, and the argument arrays after it -/

set_option backward.isDefEq.respectTransparency.types false in
/-- Every weakly fair execution of @main terminates without a fault; afterwards each windowed array holds
    something it may hold after the write-backs, and every other unscoped buffer what the region found. -/
theorem run_main : θ_run defs (onTc (τ := τ) (main (F := F))) (s₀ m ρ) (Pipeline.RDat.FramePost cfg0 (loose m) (V m)) :=
  Pipeline.RDat.θ_run_frame cfgs (0 : Fin 1) launch0 defs₀ Variants.none (loose m) m ρ main
    (hbody := body_obligation m) (hshare := fun c => (loose m c).share_full fun _ => rfl)
    (howed := fun _ _ => rfl) (V := V m) (hmain := hmain m Variants.none) (hA := fun _ _ => rfl) (hΦ := fun _ _ => rfl)

/-- The six arguments end as launched: the activations are an input window's array, which no write-back touches and
    no host operation before the region writes; the other five are not windowed at all, and no host operation
    writes them either. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have h0 := (h c).1 0
    rw [(loose m c).ArrAt_in 0 rfl] at h0
    exact ⟨h0.trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel.Untouched

end
-- ==== Proof.TileBody.lean ====
/-
  One grid point of the tiled product. The kernel keeps the activations (4096 × 128) resident and walks the
  50000 output columns in tiles of 512: at a point it reads the activations, one 512-row tile of the
  aggregated embeddings and one 512-wide tile of the bias row, and overwrites the 4096 × 512 output tile with
  activations · tileᵀ + bias (the bias broadcast down the rows).

  This module runs that body once, at any float instance, on ARBITRARY contents of the four staging buffers:
  the three inputs are left as found, and the output tile ends at the one value the body stores, a pure
  function of the three loads. Nothing is assumed of the contents, because the last tile overhangs the arrays
  (50000 = 97 · 512 + 336) and the rows of its buffers past the arrays' end hold words nothing names.
-/
import proofs.«110476_j35639638622745_1_alg».proof.Proof.Gen.KernelIdeal.Skeleton
import proofs.«110476_j35639638622745_1_alg».proof.Proof.Gen.KernelIdeal.Launch
import Idealize.ShloMosaic.Lib.Pipeline.FrameBody
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four accesses: each is its whole buffer, from offset zero -/

abbrev allActs : Rect S4096x128 := Rect.unit (s := S4096x128) ![0, 0] S4096x128.size inb_S4096x128_S4096x128_0_0
abbrev allRows : Rect S512x128 := Rect.unit (s := S512x128) ![0, 0] S512x128.size inb_S512x128_S512x128_0_0
abbrev allBias : Rect S1x512 := Rect.unit (s := S1x512) ![0, 0] S1x512.size inb_S1x512_S1x512_0_0
abbrev allOut : Rect S4096x512 := Rect.unit (s := S4096x512) ![0, 0] S4096x512.size inb_S4096x512_S4096x512_0_0

/-- What the body leaves in the output tile's buffer, from what the three input buffers hold: its single store,
    of the product-plus-bias of the three whole loads, through the whole tile. -/
def tileOut (acts : Vec F S4096x128 .f32) (rows : Vec F S512x128 .f32) (bias : Vec F S1x512 .f32) : Vec F S4096x512 .f32 :=
  View.canon [⟨allOut, k0_pay1 (View.ld acts allActs) (View.ld rows allRows) (View.ld bias allBias)⟩]

/-- The one store writes every element of the tile. -/
theorem store_covers (p : Vec F S4096x512 .f32) (y : S4096x512.Idx) :
    ∃ pc ∈ ([⟨allOut, p⟩] : List (View.Piece (Elt F) S4096x512 .f32)), y ∈ pc.1.set :=
  View.cover_of_tiled [⟨allOut, p⟩] S4096x512.size (by rfl) y

/-- Each access being its whole buffer, the stored value is the body's arithmetic applied to the three buffers'
    contents as they stand: loading everything reads everything, and a store through everything leaves its value. -/
theorem tileOut_eq (acts : Vec F S4096x128 .f32) (rows : Vec F S512x128 .f32) (bias : Vec F S1x512 .f32) :
    tileOut acts rows bias = k0_pay1 acts rows bias := by
  have hz : (![0, 0] : Fin 2 → Nat) = fun _ => 0 := funext fun a => by fin_cases a <;> rfl
  unfold tileOut
  rw [View.canon_unit_zero hz]
  simp only [View.ld_unit_zero (S := S4096x128) hz, View.ld_unit_zero (S := S512x128) hz, View.ld_unit_zero (S := S1x512) hz]

/-! ## The body, run once -/

set_option maxHeartbeats 1000000 in
/-- The body on whole staging buffers holding `acts`, `rows`, `bias` and (the output's) anything: it runs to its
    continuation with the three inputs as they were and the output tile at `tileOut` of them. The body also loads
    the output buffer before storing into it; that value is read by nothing. -/
theorem body_runs (c : Dev nD) (E : Set ℕ) (i : grid0.Coords)
    (arg1 : Memref sig .tc .vmem S4096x128 .f32) (harg1 : arg1.IsWhole) (arg2 : Memref sig .tc .vmem S512x128 .f32) (harg2 : arg2.IsWhole)
    (arg3 : Memref sig .tc .vmem S1x512 .f32) (harg3 : arg3.IsWhole) (arg4 : Memref sig .tc .vmem S4096x512 .f32) (harg4 : arg4.IsWhole)
    (acts : Vec F S4096x128 .f32) (rows : Vec F S512x128 .f32) (bias : Vec F S1x512 .f32) (K : PUnit → sProp 𝕄) :
    iprop(owns (c : Thread nD τ) arg1 fullShare acts ∗ owns (c : Thread nD τ) arg2 fullShare rows ∗ owns (c : Thread nD τ) arg3 fullShare bias
        ∗ (∃ d, owns (c : Thread nD τ) arg4 fullShare d)
        ∗ (iprop(owns (c : Thread nD τ) arg1 fullShare acts ∗ owns (c : Thread nD τ) arg2 fullShare rows ∗ owns (c : Thread nD τ) arg3 fullShare bias
              ∗ owns (c : Thread nD τ) arg4 fullShare (tileOut acts rows bias)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.KernelIdeal.Tile

end
-- ==== Proof.Logits.lean ====
/-
  The function both programs compute, over the extended reals:

      logits[r, n]  =  Σ_{k < 128} x[r, k] · agg[n, k]  +  b[n]          (r < 4096, n < 50000)

  the activations against the aggregated embedding of concept n, plus that concept's bias. `agg` is whatever the
  sparse aggregation (gather, scale, scatter-add) made of the arguments: both programs compute it by the same host
  operations, and nothing here depends on what it is.

  Two spellings of the bias: as the vector `b` the reference broadcasts, and as the one-row matrix the kernel is
  handed; they are the same function when the row is the vector laid out as a row.
-/
import Idealize.ShloMosaic.PureOps.Ideal
import Idealize.ShloMosaic.Lib.ValueIdx

noncomputable section

namespace Cert.Logits

open Idealize.ShloMosaic Idealize.ShloMosaic.ValueIdx
open scoped BigOperators

abbrev Acts : Shape := ⟨2, ![4096, 128]⟩
abbrev Embs : Shape := ⟨2, ![50000, 128]⟩
abbrev BiasVec : Shape := ⟨1, ![50000]⟩
abbrev BiasRow : Shape := ⟨2, ![1, 50000]⟩
abbrev Out : Shape := ⟨2, ![4096, 50000]⟩

/-- Entry (r, n), the bias a vector. -/
def entry (x : Acts.Idx → EReal) (agg : Embs.Idx → EReal) (b : BiasVec.Idx → EReal) (r : Fin 4096) (n : Fin 50000) : EReal :=
  (∑ k : Fin 128, x (ix2 r k) * agg (ix2 n k)) + b (ix1 n)

/-- Entry (r, n), the bias a one-row matrix. -/
def entryRow (x : Acts.Idx → EReal) (agg : Embs.Idx → EReal) (b2 : BiasRow.Idx → EReal) (r : Fin 4096) (n : Fin 50000) : EReal :=
  (∑ k : Fin 128, x (ix2 r k) * agg (ix2 n k)) + b2 (ix2 (0 : Fin 1) n)

/-- The whole result, the bias a vector: what the reference is shown to compute. -/
def logits (x : Acts.Idx → EReal) (agg : Embs.Idx → EReal) (b : BiasVec.Idx → EReal) : Out.Idx → EReal :=
  fun i => entry x agg b ⟨(i 0).val, (i 0).isLt⟩ ⟨(i 1).val, (i 1).isLt⟩

/-- The whole result, the bias a one-row matrix: what the kernel's tiles are shown to piece together. -/
def logitsRow (x : Acts.Idx → EReal) (agg : Embs.Idx → EReal) (b2 : BiasRow.Idx → EReal) : Out.Idx → EReal :=
  fun i => entryRow x agg b2 ⟨(i 0).val, (i 0).isLt⟩ ⟨(i 1).val, (i 1).isLt⟩

/-- A row that is the vector laid out as a row gives the same result. -/
theorem logitsRow_eq (x : Acts.Idx → EReal) (agg : Embs.Idx → EReal) (b : BiasVec.Idx → EReal) (b2 : BiasRow.Idx → EReal)
    (h : ∀ n : Fin 50000, b2 (ix2 (0 : Fin 1) n) = b (ix1 n)) : logitsRow x agg b2 = logits x agg b := by
  funext i
  unfold logitsRow logits entryRow entry
  rw [h]

end Cert.Logits

end
-- ==== Proof.TileValue.lean ====
/-
  One element of an output tile, over the extended reals.

  At the ideal instance the change of float format is the identity and the matrix unit's product into a zero
  accumulator is the plain sum of products, so element (r, j) of the tile the body stores is

      Σ_{k < 128} acts[r, k] · rows[j, k]  +  bias[0, j].

  It depends on row j of the embedding tile and entry j of the bias tile ONLY. That is what makes the last,
  overhanging tile harmless: an output column inside the result array reads an embedding row and a bias entry
  inside theirs, whatever the buffers hold past the arrays' end.
-/
import proofs.«110476_j35639638622745_1_alg».proof.Proof.Gen.KernelIdeal.Skeleton
import proofs.«110476_j35639638622745_1_alg».proof.Proof.Logits
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen
open Idealize.ShloMosaic Idealize.ShloMosaic.TcCoe Idealize.ShloMosaic.ValueIdx
open scoped BigOperators

/-- The product's dimension numbers: activations [4096, 128] against an embedding tile [512, 128], both contracted
    along their second axis, into [4096, 512]. -/
abbrev prodDims : DotDims S4096x128 S512x128 S4096x512 := dot_S4096x128_S512x128_S4096x512_1_1_0_0_n_n

/-! ## The product's operand indices: both operands are contracted along their second axis -/

theorem acts_row (i : S4096x512.Idx) (q : prodDims.contr.Idx) : (prodDims.lhsIdx i q 0).val = (i 0).val := by
  unfold DotDims.lhsIdx
  rw [dif_neg (show ¬(0 : Fin S4096x128.rank) ∈ prodDims.lhsBatch by decide), dif_pos (show (0 : Fin S4096x128.rank) ∈ prodDims.lhsNonContracting by decide)]
  rfl
theorem acts_col (i : S4096x512.Idx) (q : prodDims.contr.Idx) : (prodDims.lhsIdx i q 1).val = (q ⟨0, by decide⟩).val :=
  prodDims.lhsIdx_val_of_single rfl i q
theorem rows_row (i : S4096x512.Idx) (q : prodDims.contr.Idx) : (prodDims.rhsIdx i q 0).val = (i 1).val := by
  unfold DotDims.rhsIdx
  rw [dif_neg (show ¬(0 : Fin S512x128.rank) ∈ prodDims.rhsBatch by decide), dif_pos (show (0 : Fin S512x128.rank) ∈ prodDims.rhsNonContracting by decide)]
  rfl
theorem rows_col (i : S4096x512.Idx) (q : prodDims.contr.Idx) : (prodDims.rhsIdx i q 1).val = (q ⟨0, by decide⟩).val :=
  prodDims.rhsIdx_val_of_single rfl i q

/-- The product alone at (r, j): row r of the activations against row j of the embedding tile. -/
theorem product_at (lhs : FVec Ideal S4096x128 .bf16) (rhs : FVec Ideal S512x128 .bf16) (r : Fin 4096) (j : Fin 512) :
    matmul prodDims none lhs rhs (constant (F := Ideal) S4096x512 .f32 0x00000000#32) (ix2 r j)
      = ∑ k : Fin 128, lhs (ix2 r k) * rhs (ix2 j k) := by
  refine (Ideal.matmul_constant_zero_apply prodDims none lhs rhs (ix2 r j)).trans ?_
  rw [← Equiv.sum_comp (contrEquiv1 prodDims 128 rfl rfl).symm]
  refine Finset.sum_congr rfl fun k _ => ?_
  have hk := contrEquiv1_symm_val prodDims 128 rfl rfl k
  have el : prodDims.lhsIdx (ix2 r j) ((contrEquiv1 prodDims 128 rfl rfl).symm k) = ix2 r k := funext fun a => Fin.ext (by
    match a with
    | ⟨0, _⟩ => exact acts_row _ _
    | ⟨1, _⟩ => exact (acts_col _ _).trans hk)
  have er : prodDims.rhsIdx (ix2 r j) ((contrEquiv1 prodDims 128 rfl rfl).symm k) = ix2 j k := funext fun a => Fin.ext (by
    match a with
    | ⟨0, _⟩ => exact rows_row _ _
    | ⟨1, _⟩ => exact (rows_col _ _).trans hk)
  rw [el, er]

/-- Element (r, j) of the stored tile. -/
theorem tile_at (acts : Vec Ideal S4096x128 .f32) (rows : Vec Ideal S512x128 .f32) (bias : Vec Ideal S1x512 .f32)
    (r : Fin 4096) (j : Fin 512) :
    k0_pay1 (F := Ideal) acts rows bias (ix2 r j)
      = (∑ k : Fin 128, acts (ix2 r k) * rows (ix2 j k)) + bias (ix2 (0 : Fin 1) j) := by
  unfold k0_pay1
  refine congrArg₂ (· + ·) ?_ ?_
  · refine (product_at _ _ r j).trans ?_
    refine Finset.sum_congr rfl fun k _ => ?_
    rw [shapeCast_self]
    rfl
  · refine (broadcastTo_1b_ab_apply _ _ r j).trans ?_
    rw [shapeCast_self]

/-- A tile element is an entry of the result: if row r of the buffered activations is row r of `x`, row j of the
    buffered embedding tile is row n of `agg`, and entry j of the buffered bias tile is entry n of the bias row,
    then element (r, j) of the stored tile is `logits[r, n]`. Nothing is asked of any other row of the embedding
    tile or any other entry of the bias tile. -/
theorem tile_entry (x : Logits.Acts.Idx → EReal) (agg : Logits.Embs.Idx → EReal) (b2 : Logits.BiasRow.Idx → EReal)
    (acts : Vec Ideal S4096x128 .f32) (rows : Vec Ideal S512x128 .f32) (bias : Vec Ideal S1x512 .f32)
    (r : Fin 4096) (j : Fin 512) (n : Fin 50000)
    (hacts : ∀ k : Fin 128, acts (ix2 r k) = x (ix2 r k))
    (hrows : ∀ k : Fin 128, rows (ix2 j k) = agg (ix2 n k))
    (hbias : bias (ix2 (0 : Fin 1) j) = b2 (ix2 (0 : Fin 1) n)) :
    k0_pay1 (F := Ideal) acts rows bias (ix2 r j) = Logits.entryRow x agg b2 r n := by
  rw [tile_at]
  unfold Logits.entryRow
  rw [hbias]
  exact congrArg (· + _) (Finset.sum_congr rfl fun k _ => by rw [hacts k, hrows k])

end Cert.KernelIdeal.TileValue

end
-- ==== Proof.LibFillMoved.lean ====
/-
  A staging buffer just fetched into holds the array's block on the part the transfer moved and the buffer's
  previous contents elsewhere (the library's `Window.fill`). Read at an index that WAS moved it is the fetched
  block there, whatever the previous contents: the form that lets a body's value at an in-array element ignore
  the words a clipped edge block leaves past the array's end.
-/
import Idealize.ShloMosaic.Lib.Pipeline

namespace Cert.Lib.FillMoved

open Idealize.ShloMosaic Idealize.ShloMosaic.Pipeline

/-- At an index the transfer moves, `fill i d g` is `g` there (and does not depend on `d`). -/
theorem fill_of_moved {sig : RefSig} {G : Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

end Cert.Lib.FillMoved
-- ==== Proof.TileBlock.lean ====
/-
  What one grid point contributes to the result, with the arrays abstract.

  Point t (t < 98) works on output columns 512 t … 512 t + 511, of which the last point's reach past column
  49999: there the transfers are cut at the arrays' end, and a staging buffer holds the array's block on its
  leading part and arbitrary words after it (`d1` for the embedding tile, `d2` for the bias tile).

  The theorem: the part of the stored tile that lies INSIDE the result array is the block, at point t, of
  `logitsRow X AGG B2`, for any arrays X, AGG, B2 and any `d1`, `d2`. Element (r, j) of the tile reads row j of the
  embedding tile and entry j of the bias tile; if column 512 t + j is inside the result then row 512 t + j is inside
  the embeddings and entry 512 t + j inside the bias row, so both were fetched, and they are those of AGG and B2.

  The arrays are variables here on purpose: the arrays the region actually finds are the results of long host
  computations (a gather and a scatter-add over 800000 rows), and nothing below should ever unfold one.
-/
import proofs.«110476_j35639638622745_1_alg».proof.Proof.TileValue
import proofs.«110476_j35639638622745_1_alg».proof.Proof.LibFillMoved
import proofs.«110476_j35639638622745_1_alg».proof.Proof.Gen.KernelIdeal.Points
import Idealize.ShloMosaic.Lib.Pipeline.Value

set_option maxRecDepth 16384

noncomputable section

namespace Cert.KernelIdeal.TileBlock

open Cert.KernelIdeal Cert.KernelIdeal.Gen Cert.KernelIdeal.TileValue
open Idealize.ShloMosaic Idealize.ShloMosaic.TcCoe Idealize.ShloMosaic.ValueIdx
open Idealize.ShloMosaic.Pipeline (Window)

/-- The schedule's arithmetic, decided once over the 98 points: which block each window is on (the activations
    always block 0; the embedding tile block t along its rows; the bias and output tiles block t along their
    columns), and how far each transfer reaches — the output tile's width at point t is 512, except at the last
    point where it stops at column 50000, and the embedding tile's height and the bias tile's width are that same
    number. -/
theorem grid_facts : ∀ t : Fin cfg0.N,
    win0_0.index t 0 = 0 ∧ win0_0.index t 1 = 0
    ∧ win0_1.index t 0 = t.val ∧ win0_1.index t 1 = 0
    ∧ win0_2.index t 0 = 0 ∧ win0_2.index t 1 = t.val
    ∧ win0_3.index t 0 = 0 ∧ win0_3.index t 1 = t.val
    ∧ win0_1.xsize (grid0.coords t) 0 = win0_3.xsize (grid0.coords t) 1 ∧ win0_1.xsize (grid0.coords t) 1 = 128
    ∧ win0_2.xsize (grid0.coords t) 0 = 1 ∧ win0_2.xsize (grid0.coords t) 1 = win0_3.xsize (grid0.coords t) 1
    ∧ win0_3.xsize (grid0.coords t) 0 = 4096
    ∧ win0_3.xsize (grid0.coords t) 1 ≤ 512 ∧ t.val * 512 + win0_3.xsize (grid0.coords t) 1 ≤ 50000
    ∧ (win0_3.xsize (grid0.coords t) 1 = 512 ∨ t.val * 512 + win0_3.xsize (grid0.coords t) 1 = 50000) :=
  (by decide +kernel : ∀ t : Fin grid0.N, _)
open Cert.Lib.FillMoved in
/-- The in-array part of the tile stored at point `t` is the block there of `logitsRow X AGG B2`. -/
theorem tile_block (t : Fin cfg0.N) (X : S4096x128.Idx → Elt Ideal .f32) (AGG : S50000x128.Idx → Elt Ideal .f32)
    (B2 : S1x50000.Idx → Elt Ideal .f32) (d1 : win0_1.block.Idx → Elt Ideal .f32) (d2 : win0_2.block.Idx → Elt Ideal .f32) :
    win0_3.cut (grid0.coords t) (k0_pay1 (F := Ideal) (((cfg0.win 0).blk t).view.read (Elt Ideal) X)
        (win0_1.fill (grid0.coords t) d1 (((cfg0.win 1).blk t).view.read (Elt Ideal) AGG))
        (win0_2.fill (grid0.coords t) d2 (((cfg0.win 2).blk t).view.read (Elt Ideal) B2)))
      = ((cfg0.win 3).blk t).view.read (Elt Ideal) (Logits.logitsRow X AGG B2) := by
  obtain ⟨i00, i01, i10, i11, i20, i21, i30, i31, x10, x11, x20, x21, x30, x31, hin, hlast⟩ := grid_facts t
  funext y
  have hy1 : (y 1).val < win0_3.xsize (grid0.coords t) 1 := (y 1).isLt
  show k0_pay1 (F := Ideal) _ _ _ (win0_3.xinj (grid0.coords t) y) = Logits.logitsRow X AGG B2 (((cfg0.win 3).blk t).view.emb y)
  obtain ⟨r, j, e1, hr, hj⟩ : ∃ (r : Fin 4096) (j : Fin 512), win0_3.xinj (grid0.coords t) y = ix2 r j
      ∧ r.val = (y 0).val ∧ j.val = (y 1).val := ⟨_, _, eq_ix2 (n0 := 4096) (n1 := 512) _, rfl, rfl⟩
  obtain ⟨r', n, e2, hr', hn⟩ : ∃ (r' : Fin 4096) (n : Fin 50000), ((cfg0.win 3).blk t).view.emb y = ix2 r' n
      ∧ r'.val = win0_3.index t 0 * 4096 + 1 * (y 0).val ∧ n.val = win0_3.index t 1 * 512 + 1 * (y 1).val :=
    ⟨_, _, eq_ix2 (n0 := 4096) (n1 := 50000) _, rfl, rfl⟩
  have hrr : r' = r := Fin.ext (by rw [hr', hr, i30]; omega)
  subst hrr
  rw [e1, e2]
  have hnv : n.val = t.val * 512 + j.val := by rw [hn, i31, hj]; omega
  refine (tile_entry X AGG B2 _ _ _ r' j n ?_ ?_ ?_).trans ?_
  · -- the activations' window is the whole array at every point
    intro k
    show X (((cfg0.win 0).blk t).view.emb (ix2 r' k)) = X (ix2 r' k)
    refine congrArg X ((eq_ix2 (n0 := 4096) (n1 := 128) _).trans ?_)
    exact congrArg₂ (ix2 (n0 := 4096) (n1 := 128))
      (Fin.ext (show win0_0.index t 0 * 4096 + 1 * r'.val = r'.val by rw [i00]; omega))
      (Fin.ext (show win0_0.index t 1 * 128 + 1 * k.val = k.val by rw [i01]; omega))
  · -- row j of the embedding tile was fetched: it is row 512 t + j of the embeddings
    intro k
    have hmv : win0_1.moved (grid0.coords t) (ix2 j k) = true :=
      (win0_1.moved_iff _ _).mpr (show ∀ a : Fin 2, ((ix2 j k : S512x128.Idx) a).val < win0_1.xsize (grid0.coords t) a from
        Fin.forall_fin_two.mpr ⟨by show j.val < win0_1.xsize (grid0.coords t) 0; rw [x10, hj]; exact hy1,
          by show k.val < win0_1.xsize (grid0.coords t) 1; rw [x11]; exact k.isLt⟩)
    refine (fill_of_moved win0_1 (grid0.coords t) d1 _ (ix2 j k) hmv).trans ?_
    show AGG (((cfg0.win 1).blk t).view.emb _) = AGG (ix2 n k)
    refine congrArg AGG ((eq_ix2 (n0 := 50000) (n1 := 128) _).trans ?_)
    exact congrArg₂ (ix2 (n0 := 50000) (n1 := 128))
      (Fin.ext (show win0_1.index t 0 * 512 + 1 * j.val = n.val by rw [i10, hnv]; omega))
      (Fin.ext (show win0_1.index t 1 * 128 + 1 * k.val = k.val by rw [i11]; omega))
  · -- entry j of the bias tile was fetched: it is entry 512 t + j of the bias row
    have hmv : win0_2.moved (grid0.coords t) (ix2 (0 : Fin 1) j) = true :=
      (win0_2.moved_iff _ _).mpr (show ∀ a : Fin 2, ((ix2 (0 : Fin 1) j : S1x512.Idx) a).val < win0_2.xsize (grid0.coords t) a from
        Fin.forall_fin_two.mpr ⟨by show (0 : Nat) < win0_2.xsize (grid0.coords t) 0; rw [x20]; exact Nat.one_pos,
          by show j.val < win0_2.xsize (grid0.coords t) 1; rw [x21, hj]; exact hy1⟩)
    refine (fill_of_moved win0_2 (grid0.coords t) d2 _ (ix2 (0 : Fin 1) j) hmv).trans ?_
    show B2 (((cfg0.win 2).blk t).view.emb _) = B2 (ix2 (0 : Fin 1) n)
    refine congrArg B2 ((eq_ix2 (n0 := 1) (n1 := 50000) _).trans ?_)
    exact congrArg₂ (ix2 (n0 := 1) (n1 := 50000))
      (Fin.ext (show win0_2.index t 0 * 1 + 1 * 0 = 0 by rw [i20]))
      (Fin.ext (show win0_2.index t 1 * 512 + 1 * j.val = n.val by rw [i21, hnv]; omega))
  · rfl

end Cert.KernelIdeal.TileBlock

end
-- ==== Proof.TileData.lean ====
/-
  The idealized kernel, run: after the region the result array holds `logitsRow` of the three arrays the region
  finds (activations, aggregated embeddings, bias row), and every other array what it held.

  The proof data. At every point the three input buffers hold their blocks — the two tiles filled out past the
  arrays' end with the zero word, which nothing reads — and the output buffer holds the TARGET's block, filled out
  likewise. That the body really leaves that in the output buffer, on the part inside the array, is
  `TileBlock.tile_block`; the obligation asks no more of a clipped window. What the write-back of point t writes is
  then the target's block by definition, the 98 blocks cover the array (column n is in block n / 512: blocks 0 … 96
  are 512 wide and block 97 holds the last 336 columns), and an array whose every block is some function's block is
  that function.
-/
import proofs.«110476_j35639638622745_1_alg».proof.Proof.TileBody
import proofs.«110476_j35639638622745_1_alg».proof.Proof.TileBlock
import proofs.«110476_j35639638622745_1_alg».proof.Proof.Gen.KernelIdeal.Points
import proofs.«110476_j35639638622745_1_alg».proof.Proof.Gen.KernelIdeal.Frame
import Idealize.ShloMosaic.Lib.Pipeline.Frame
import Idealize.ShloMosaic.Lib.Pipeline.Kit
import Idealize.ShloMosaic.Lib.Pipeline.Value

set_option maxRecDepth 16384

noncomputable section

namespace Cert.KernelIdeal.Tiles

open Cert.KernelIdeal Cert.KernelIdeal.Gen Cert.KernelIdeal.Tile Cert.KernelIdeal.TileBlock
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The target -/

/-- The result as one function of the three arrays the region finds, in the windows' order. -/
def target (c : Dev nD) : Buf (Elt Ideal) ((c : Thread nD τ).loc (Pipeline.arrRef spec0 3)) :=
  Logits.logitsRow (V m c (Pipeline.arrRef spec0 0)) (V m c (Pipeline.arrRef spec0 1)) (V m c (Pipeline.arrRef spec0 2))

/-- Its block at point `t`: the part of the output tile inside the array. -/
def outBlock (c : Dev nD) (t : Fin cfg0.N) : ((cfg0.win 3).xblock (cfg0.grid.coords t)).Idx → Elt Ideal (cfg0.win 3).elt :=
  ((cfg0.win 3).blk t).view.read (Elt Ideal) (target m c)

/-- `tile_block` at the region's arrays: whatever the two tiles' buffers hold past the arrays' end, the in-array
    part of what the body stores at point `t` is the target's block. -/
theorem stored_block (c : Dev nD) (t : Fin cfg0.N) (d1 : win0_1.block.Idx → Elt Ideal .f32) (d2 : win0_2.block.Idx → Elt Ideal .f32) :
    win0_3.cut (grid0.coords t) (k0_pay1 (F := Ideal) (iblk m c 0 t) (win0_1.fill (grid0.coords t) d1 (iblk m c 1 t))
        (win0_2.fill (grid0.coords t) d2 (iblk m c 2 t)))
      = outBlock m c t := by
  unfold iblk outBlock target
  exact tile_block t _ _ _ d1 d2

/-! ## The proof data -/

/-- The value the proof data fill a clipped buffer's tail out with (at the ideal instance an element is an extended real). Nothing reads it, and the obligation of a
    clipped window says nothing of the tail. -/
abbrev pad : Elt Ideal .f32 := (0 : EReal)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => pad) (iblk m c 1 t)
    | ⟨2, _⟩ => win0_2.fill (grid0.coords t) (fun _ => pad) (iblk m c 2 t)
    | ⟨3, _⟩ => win0_3.fill (grid0.coords t) (fun _ => pad) (outBlock m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_acts (c : Dev nD) (t : Fin cfg0.N) : (dats m 0 c).after 0 t = iblk m c 0 t := by dsimp only [dats]
theorem after_rows (c : Dev nD) (t : Fin cfg0.N) :
    (dats m 0 c).after 1 t = win0_1.fill (grid0.coords t) (fun _ => pad) (iblk m c 1 t) := by dsimp only [dats]
theorem after_bias (c : Dev nD) (t : Fin cfg0.N) :
    (dats m 0 c).after 2 t = win0_2.fill (grid0.coords t) (fun _ => pad) (iblk m c 2 t) := by dsimp only [dats]
theorem after_out (c : Dev nD) (t : Fin cfg0.N) :
    (dats m 0 c).after 3 t = win0_3.fill (grid0.coords t) (fun _ => pad) (outBlock m c t) := by dsimp only [dats]

/-! ## What the body finds in each buffer -/

/-- The activations, fetched once at the first point and left in place since: the whole array. -/
theorem before_acts (c : Dev nD) (t : Fin cfg0.N) (d) : (dats m 0 c).before 0 t d = iblk m c 0 t :=
  before0_0_of m (dats m 0 c) (A_eq m c 0) (after_acts m c) t d

/-- The embedding tile, fetched at every point: its block on the rows inside the array, `d` after them. -/
theorem before_rows (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-- The bias tile, likewise. -/
theorem before_bias (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk
  rw [A_eq]

/-- The output tile, written back at every point: its buffer is fresh at each. -/
theorem before_out (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation -/

/-- The body at point `t`, as the pipeline calls it: each buffer arrives as above — the two tiles with ARBITRARY tails
    `d1`, `d2` — and is handed back with the inputs untouched and the output tile at the body's stored value, which on
    the part inside the array is the target's block (`stored_block`). A clipped window's buffer is only described on
    that part, so the tails are existentially quantified on the way out as on the way in. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare (win0_1.fill (grid0.coords t) d (win0_1.cut (grid0.coords t) ((dats m 0 c).after 1 t))))
            ∗ (∃ d, owns (c : Thread nD τ) (st0_2 t) fullShare (win0_2.fill (grid0.coords t) d (win0_2.cut (grid0.coords t) ((dats m 0 c).after 2 t))))
            ∗ (∃ d, owns (c : Thread nD τ) (st0_3 t) fullShare (win0_3.fill (grid0.coords t) d (win0_3.cut (grid0.coords t) ((dats m 0 c).after 3 t)))))) := by
  unfold bodyAt0
  have h1 : win0_1.cut (grid0.coords t) ((dats m 0 c).after 1 t) = iblk m c 1 t := by rw [after_rows]; exact win0_1.cut_fill _ _ _
  have h2 : win0_2.cut (grid0.coords t) ((dats m 0 c).after 2 t) = iblk m c 2 t := by rw [after_bias]; exact win0_2.cut_fill _ _ _
  have h3 : win0_3.cut (grid0.coords t) ((dats m 0 c).after 3 t) = outBlock m c t := by rw [after_out]; exact win0_3.cut_fill _ _ _
  rw [show (dats m 0 c).Φ t.succ = (dats m 0 c).Φ t.castSucc from rfl,
    show (dats m 0 c).owesAt () t.succ = (dats m 0 c).owesAt () t.castSucc from rfl,
    h1, h2, h3, after_acts]
  iintro ⟨HΦ, Ho, ⟨%d0, H0⟩, ⟨%d1, H1⟩, ⟨%d2, H2⟩, ⟨%d3, H3⟩⟩
  rw [before_acts m c t d0, before_rows m c t d1, before_bias m c t d2, before_out m c t d3]
  iapply (body_runs (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  · iexists (tileOut (iblk m c 0 t) (win0_1.fill (grid0.coords t) d1 (iblk m c 1 t)) (win0_2.fill (grid0.coords t) d2 (iblk m c 2 t)))
    rw [← stored_block m c t d1 d2, ← tileOut_eq, win0_3.fill_cut]
    iexact H3

/-- The library's obligation for windows that may be clipped: the above at every point. -/
theorem body_obligation (c : Dev nD) : BodyObligationLoose (dats m 0 c) (defs₀ (F := Ideal)) Variants.none () Set.univ := fun t => by
  rw [bigSep_W0, bigSep_W0]
  exact body_at m c t

/-! ## The run -/

set_option backward.isDefEq.respectTransparency.types false in
/-- Every weakly fair execution of @main terminates without a fault; afterwards each windowed array holds what the
    library computes from the proof data, and every other unscoped buffer what the region found. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-! ## From the 98 blocks to the array -/

/-- What point `t` writes back is the target's block there: by the proof data's choice. -/
theorem flushed_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after_out]
  exact win0_3.cut_fill _ _ _

/-- An index of the result is in point `t`'s block iff each coordinate is in the block's range on its axis, the
    range being as long as the transfer reaches. -/
theorem mem_tile (t : Fin cfg0.N) (i : S4096x50000.Idx) :
    i ∈ ((cfg0.win 3).blk t).view.set ↔ ∀ a : Fin 2, win0_3.index t a * S4096x512.size a ≤ (i a).val
      ∧ (i a).val < win0_3.index t a * S4096x512.size a + win0_3.xsize (grid0.coords t) a := by
  show i ∈ ((View.whole main_v14).slice (win0_3.rect t)).set ↔ _
  rw [View.set_slice_whole, Rect.mem_set_unit]
  exact Iff.rfl

/-- Every column is in some point's block: column n in block n / 512. Blocks 0 … 96 span 512 columns; block 97
    spans the remaining 336, and 97 · 512 + 336 = 50000. -/
theorem covered (i : S4096x50000.Idx) :
    ∃ t : Fin cfg0.N, (cfg0.win 3).flush t = true ∧ i ∈ ((cfg0.win 3).blk t).view.set := by
  have hi0 : (i 0).val < 4096 := (i 0).isLt
  have hi1 : (i 1).val < 50000 := (i 1).isLt
  have hN : cfg0.N = 98 := N_0
  obtain ⟨t, ht⟩ : ∃ t : Fin cfg0.N, t.val = (i 1).val / 512 := ⟨⟨(i 1).val / 512, by rw [hN]; omega⟩, rfl⟩
  obtain ⟨i00, i01, i10, i11, i20, i21, i30, i31, x10, x11, x20, x21, x30, x31, hin, hlast⟩ := grid_facts t
  refine ⟨t, flush0_3 t, ?_⟩
  rw [mem_tile]
  exact Fin.forall_fin_two.mpr
    ⟨by show win0_3.index t 0 * 4096 ≤ (i 0).val ∧ (i 0).val < win0_3.index t 0 * 4096 + win0_3.xsize (grid0.coords t) 0
        rw [i30, x30]; omega,
     by show win0_3.index t 1 * 512 ≤ (i 1).val ∧ (i 1).val < win0_3.index t 1 * 512 + win0_3.xsize (grid0.coords t) 1
        rw [i31]; omega⟩

/-- THE RESULT ARRAY after the run is the target. -/
theorem final (c : Dev nD) : (dats m 0 c).arrAt 3 cfg0.N = target m c :=
  (dats m 0 c).arrAt_eq_of_cover 3 (target m c) (fun t _ => flushed_eq m c t) covered

end Cert.KernelIdeal.Tiles

end
-- ==== Proof.KernelValue.lean ====
/-
  The idealized kernel's result as a function of its ARGUMENTS.

  `Tiles.final` has the result array at `logitsRow` of the three arrays the region finds. Those are: the activations,
  which no host operation writes; the aggregated embeddings, which the 16 host operations before the region compute
  from the embedding table, the values, the rows and the columns — the very operations, with the very literals, of
  the reference, so that the array is the reference's own aggregation stage of the same arguments, and neither
  the gather nor the scatter-add is ever opened; and the bias laid out as a one-row matrix, whose entry (0, n) is the
  bias vector's entry n. Hence the result is `logits` of the arguments.
-/
import proofs.«110476_j35639638622745_1_alg».proof.Proof.TileData
import proofs.«110476_j35639638622745_1_alg».proof.Proof.Gen.ReferenceIdeal.Read
import Idealize.ShloMosaic.Lib.StableHlo.Run
import Idealize.ShloMosaic.Lib.ValueLayout

set_option maxRecDepth 16384

noncomputable section

namespace Cert.KernelIdeal.Result

open Cert.KernelIdeal Cert.KernelIdeal.Gen Cert.KernelIdeal.Tiles
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The aggregated embeddings of the four arguments they depend on: the reference's stage, by name. -/
abbrev aggOf (c : Dev nD) : S50000x128.Idx → EReal :=
  Cert.ReferenceIdeal.Read.val_main_v12 (F := Ideal) (m ((c : Thread nD τ).loc main_arg1)) (m ((c : Thread nD τ).loc main_arg3))
    (m ((c : Thread nD τ).loc main_arg4)) (m ((c : Thread nD τ).loc main_arg5))

/-- The embeddings the region finds are that stage: the host operations before the region, composed, are the
    reference's, operation for operation. -/
theorem embs_eq (c : Dev nD) : (V m c main_v12 : S50000x128.Idx → EReal) = aggOf m c := by
  dsimp only [Gen.V, Gen.hostOps0]
  after_results
  rfl

/-- The bias row the region finds is the bias vector laid out as a row. -/
theorem bias_row (c : Dev nD) (n : Fin 50000) :
    (V m c main_v13 : S1x50000.Idx → EReal) (ix2 (0 : Fin 1) n) = m ((c : Thread nD τ).loc main_arg2) (ix1 n) := by
  dsimp only [Gen.V, Gen.hostOps0]
  after_results
  show shapeCast S1x50000 (m ((c : Thread nD τ).loc main_arg2)) shapeCasts_S50000_S1x50000 (ix2 (0 : Fin 1) n) = _
  exact shapeCast_a_1a_apply _ _ 0 n

/-- The result as a function of the arguments. -/
abbrev resultOf (c : Dev nD) : S4096x50000.Idx → EReal :=
  Logits.logits (m ((c : Thread nD τ).loc main_arg0)) (aggOf m c) (m ((c : Thread nD τ).loc main_arg2))

/-- The target is that function. -/
theorem target_eq (c : Dev nD) : target m c = resultOf m c := by
  have hx : (V m c (Pipeline.arrRef spec0 0) : S4096x128.Idx → EReal) = m ((c : Thread nD τ).loc main_arg0) := V_main_arg0 m c
  have ha : (V m c (Pipeline.arrRef spec0 1) : S50000x128.Idx → EReal) = aggOf m c := embs_eq m c
  unfold target
  rw [hx, ha]
  exact Logits.logitsRow_eq _ _ _ _ (bias_row m c)

/-- THE RUN: every weakly fair execution of the idealized kernel's @main terminates without a fault, with the
    result array at `logits` of the arguments and the six arguments as launched. -/
theorem run : θ_run defs (onTc (τ := τ) (main (F := Ideal))) ⟨m, fun _ => 0, ρ⟩ (fun r => ∀ c : Dev nD,
      r.2.mem ((c.tc : Thread nD τ).loc main_v14) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).1 3).trans ((final m c).trans (target_eq m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Result

end
-- ==== Proof.RefLogits.lean ====
/-
  The reference computes `logits` of its arguments.

  Read one operation at a time (the generated read-at-an-index lemmas): the last operation adds, element by element,
  the matrix product of the activations with the TRANSPOSED aggregated embeddings — at (r, n) the sum over k of
  x[r, k] · aggᵀ[k, n] = x[r, k] · agg[n, k] — and the bias vector broadcast first to a row and then down the rows,
  which at (r, n) is b[n]. The aggregation itself (gather, scale, scatter-add) is the stage `val_main_v12` of the
  arguments and stays closed: the kernel computes the same stage by the same operations.
-/
import proofs.«110476_j35639638622745_1_alg».proof.Proof.Gen.ReferenceIdeal.Read
import proofs.«110476_j35639638622745_1_alg».proof.Proof.Logits

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

theorem result_is_logits (x0 : (⟨S4096x128, .f32⟩ : BufTy).Contents (Elt Ideal)) (x1 : (⟨S50000x128, .f32⟩ : BufTy).Contents (Elt Ideal))
    (x2 : (⟨S50000, .f32⟩ : BufTy).Contents (Elt Ideal)) (x3 : (⟨S800000, .f32⟩ : BufTy).Contents (Elt Ideal))
    (x4 x5 : (⟨S800000, .i32⟩ : BufTy).Contents (Elt Ideal)) :
    val_main_v17 (F := Ideal) x0 x1 x2 x3 x4 x5 = Logits.logits x0 (val_main_v12 (F := Ideal) x1 x3 x4 x5) x2 := by
  funext i
  have el : ∀ k : Fin 128, lidx_main_v14 i k = ix2 (⟨(i 0).val, (i 0).isLt⟩ : Fin 4096) k := fun k => funext fun a => by
    match a with
    | ⟨0, _⟩ => rfl
    | ⟨1, _⟩ => rfl
  have er : ∀ k : Fin 128, idx_main_v13 (ridx_main_v14 i k) = ix2 (⟨(i 1).val, (i 1).isLt⟩ : Fin 50000) k := fun k => funext fun a => by
    match a with
    | ⟨0, _⟩ => rfl
    | ⟨1, _⟩ => rfl
  have eb : idx_main_v15 (idx_main_v16 i) = ix1 (⟨(i 1).val, (i 1).isLt⟩ : Fin 50000) := funext fun a => by
    match a with
    | ⟨0, _⟩ => rfl
  rw [val_main_v17_apply, val_main_v14_apply, val_main_v16_apply, val_main_v15_apply]
  simp only [val_main_v13_apply, el, er, eb]
  rfl

end Cert.ReferenceIdeal.RefValue

end
-- ==== Proof.lean ====
/-
  A linear layer over aggregated concept embeddings, tiled: logits[r, n] = Σ_{k < 128} x[r, k] · agg[n, k] + b[n]
  for 4096 activations and 50000 concepts, where agg is the sparse aggregation of the embedding table (gather the
  listed columns, scale by the values, add into the listed rows).

  Both programs compute agg by the same host operations. The kernel then walks the 50000 columns in 98 tiles of
  512 with the activations resident, multiplying against each 512-row tile of agg (transposed in the product) and
  adding the bias tile; the reference transposes agg, takes one whole product and adds the broadcast bias. Over
  the extended reals a change of float format is the identity and both products are the same 128-term sum, so the
  two results are equal element by element. No law beyond reading both sides at an index is needed — in particular
  no distributivity and no cancellation — so the precondition (finite inputs) is never opened.

  The one delicate point is the LAST tile: 50000 = 97 · 512 + 336, so its embedding rows, bias entries and output
  columns reach past the arrays, the transfers are cut there, and the staging buffers hold unnamed values beyond.
  * Over the extended reals an output element (r, j) of a tile reads row j of the embedding tile and entry j of the
    bias tile only (Proof/TileValue.lean), so the columns inside the result are untouched by the unnamed values
    (Proof/TileBlock.lean) and the 98 written blocks piece the whole result together (Proof/TileData.lean,
    Proof/KernelValue.lean).
  * At the word level the product is a function of its whole operands and that argument is not available; the
    word-level kernel's frame is therefore proved from relational data that name nothing the body leaves
    (Proof/KernelFrame.lean). It asks only what is true at any contents: the body runs (Proof/TileBody.lean).
  The reference's run and its read-at-an-index lemmas are the generated ones; Proof/RefLogits.lean composes them.
  The idealization rewrote no operation, so there is nothing to preserve.
-/
import proofs.«110476_j35639638622745_1_alg».proof.Defs
import proofs.«110476_j35639638622745_1_alg».proof.Proof.Gen.Kernel
import proofs.«110476_j35639638622745_1_alg».proof.Proof.Gen.KernelIdeal
import proofs.«110476_j35639638622745_1_alg».proof.Proof.Gen.KernelIdeal.Frame
import proofs.«110476_j35639638622745_1_alg».proof.Proof.Gen.ReferenceIdeal
import proofs.«110476_j35639638622745_1_alg».proof.Proof.Gen.Pre_finite_inputs
import proofs.«110476_j35639638622745_1_alg».proof.Proof.Gen.ReferenceIdeal.Run
import proofs.«110476_j35639638622745_1_alg».proof.Proof.Gen.ReferenceIdeal.Read
import proofs.«110476_j35639638622745_1_alg».proof.Proof.KernelFrame
import proofs.«110476_j35639638622745_1_alg».proof.Proof.KernelValue
import proofs.«110476_j35639638622745_1_alg».proof.Proof.RefLogits
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Untouched.frame m ρ

/-- So does the idealized kernel: its value run, read at the argument arrays. -/
theorem frame_ideal : Cert.frame_KernelIdeal := fun m ρ _ =>
  Cert.KernelIdeal.Gen.frame_of m ρ (Cert.KernelIdeal.Tiles.dats m) (Cert.KernelIdeal.Tiles.A_eq m) (Cert.KernelIdeal.Tiles.run_main m ρ)

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments both idealized programs end with the result at `logits` of the
    arguments: the kernel by its 98 tiles, the reference by its one product. -/
theorem algebraic : Cert.algebraic_KernelIdeal_ReferenceIdeal := by
  intro m ρ m' ρ' _ hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_is_logits,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
